-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S2048x512 : Shape := ⟨2, ![2048, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32768x512 .f32) (main_arg1 : FVec F S32768x1 .f32) (main_arg2 : FVec F S2048x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S32768x512 : Shape := ⟨2, ![32768, 512]⟩
abbrev S32768x1 : Shape := ⟨2, ![32768, 1]⟩
abbrev S2048x512 : Shape := ⟨2, ![2048, 512]⟩
abbrev S_ : Shape := ⟨0, ![]⟩
abbrev S2048 : Shape := ⟨1, ![2048]⟩
abbrev S1x2048 : Shape := ⟨2, ![1, 2048]⟩
abbrev S1x32768x2048 : Shape := ⟨3, ![1, 32768, 2048]⟩
abbrev S2x1x2048 : Shape := ⟨3, ![2, 1, 2048]⟩
abbrev S512x512 : Shape := ⟨2, ![512, 512]⟩
abbrev S512x1 : Shape := ⟨2, ![512, 1]⟩
abbrev S1x512x2048 : Shape := ⟨3, ![1, 512, 2048]⟩
abbrev S1x1x2048 : Shape := ⟨3, ![1, 1, 2048]⟩
abbrev S512 : Shape := ⟨1, ![512]⟩
abbrev S512x2048 : Shape := ⟨2, ![512, 2048]⟩

abbrev nBuf : Space → Nat
  | .hbm => 17
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S2048x512, .f32⟩
  | .hbm, ⟨3, _⟩ => ⟨S2048x512, .bf16⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S1x32768x2048, .f32⟩
  | .hbm, ⟨9, _⟩ => ⟨S2x1x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S512x1, .f32⟩
  | .local _ .vmem, ⟨3, _⟩ => ⟨S512x1, .f32⟩
  | .local _ .vmem, ⟨4, _⟩ => ⟨S2048x512, .bf16⟩
  | .local _ .vmem, ⟨5, _⟩ => ⟨S1x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S2048x512_S2048_d1 : S2048x512.ReducesTo [1] S2048
  h_S_ : 0 < S_.numel
  bcast_S2048_S1x2048_1 : S2048.BroadcastsInDim S1x2048 (![1] : Fin 1 → Fin S1x2048.rank)
  inb_S1x1x2048_S1x1x2048_0_0_0 : ∀ a, (![0, 0, 0] : Fin 3 → Nat) a + S1x1x2048.size a ≤ S1x1x2048.size a
  h_S1x1x2048 : 0 < S1x1x2048.numel
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x512_S512 : S512x512.Reduces [1] S512
  shapeCasts_S512_S512x1 : S512.ShapeCasts S512x1
  broadcasts_S512x1_S512x2048 : S512x1.Broadcasts S512x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x2048_S1x512x2048 : S512x2048.ShapeCasts S1x512x2048
  inb_S1x512x2048_S1x512x2048_0_0_0 : ∀ a, (![0, 0, 0] : Fin 3 → Nat) a + S1x512x2048.size a ≤ S1x512x2048.size a
  h_S1x512x2048 : 0 < S1x512x2048.numel
  reduces_S512x2048_S2048 : S512x2048.Reduces [0] S2048
  shapeCasts_S2048_S1x2048 : S2048.ShapeCasts S1x2048
  shapeCasts_S1x1x2048_S1x1x2048 : S1x1x2048.ShapeCasts S1x1x2048
  shapeCasts_S1x2048_S1x1x2048 : S1x2048.ShapeCasts S1x1x2048
  reducesTo_S32768x1_S_d0_1 : S32768x1.ReducesTo [0, 1] S_
  reducesTo_S2x1x2048_S2048_d0_1 : S2x1x2048.ReducesTo [0, 1] S2048
  bcast_S_S2048 : S_.BroadcastsInDim S2048 (![] : Fin 0 → Fin S2048.rank)
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S1x32768x2048.size a
  hwx0_4 : ∀ i : grid0.Coords, EltTy.bits .f32 = 32 ∨ (Rect.block (s := S1x32768x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S2x1x2048.size a
  hwx0_5 : ∀ i : grid0.Coords, EltTy.bits .f32 = 32 ∨ (Rect.block (s := S2x1x2048) S1x1x2048.size (cc0_transform_5 i) (hinb0_5 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S2048x512 : Shape := ⟨2, ![2048, 512]⟩
abbrev S_ : Shape := ⟨0, ![]⟩
abbrev S32768 : Shape := ⟨1, ![32768]⟩
abbrev S2048 : Shape := ⟨1, ![2048]⟩
abbrev S32768x2048 : Shape := ⟨2, ![32768, 2048]⟩
abbrev S1x2048 : Shape := ⟨2, ![1, 2048]⟩
abbrev S1x32768x2048 : Shape := ⟨3, ![1, 32768, 2048]⟩
abbrev S1x32768x1 : Shape := ⟨3, ![1, 32768, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S2048x512, .f32⟩
  | .hbm, ⟨3, _⟩ => ⟨S32768x512, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S32768x2048, .f32⟩
  | .hbm, ⟨11, _⟩ => ⟨S1x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S1x32768x2048, .f32⟩
  | .hbm, ⟨24, _⟩ => ⟨S1x32768x1, .f32⟩
  | .hbm, ⟨25, _⟩ => ⟨S1x32768x2048, .f32⟩
  | .hbm, ⟨26, _⟩ => ⟨S1x32768x2048, .f32⟩
  | .hbm, ⟨27, _⟩ => ⟨S_, .f32⟩
  | .hbm, ⟨28, _⟩ => ⟨S1x2048, .f32⟩
  | .hbm, ⟨29, _⟩ => ⟨S_, .f32⟩
  | .hbm, ⟨30, _⟩ => ⟨S_, .f32⟩
  | .hbm, ⟨31, _⟩ => ⟨S1x2048, .f32⟩
  | .hbm, ⟨32, _⟩ => ⟨S1x2048, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S2048x512_S2048_d1 : S2048x512.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S32768x2048_S1x32768x2048_1_2 : S32768x2048.BroadcastsInDim S1x32768x2048 (![1, 2] : Fin 2 → Fin S1x32768x2048.rank)
  bcast_S32768x1_S1x32768x1_1_2 : S32768x1.BroadcastsInDim S1x32768x1 (![1, 2] : Fin 2 → Fin S1x32768x1.rank)
  bcast_S1x32768x1_S1x32768x2048_0_1_2 : S1x32768x1.BroadcastsInDim S1x32768x2048 (![0, 1, 2] : Fin 3 → Fin S1x32768x2048.rank)
  reducesTo_S1x32768x2048_S1x2048_d1 : S1x32768x2048.ReducesTo [1] S1x2048
  reducesTo_S32768x1_S_d0_1 : S32768x1.ReducesTo [0, 1] S_
  bcast_S_S1x2048 : S_.BroadcastsInDim S1x2048 (![] : Fin 0 → Fin S1x2048.rank)
  dot_S32768x512_S2048x512_S32768x2048_1_1_0_0_n_n_wf : DotDims.WF S32768x512 S2048x512 S32768x2048 [1] [1] [0] [0] [] []

variable [Facts₀]

def dot_S32768x512_S2048x512_S32768x2048_1_1_0_0_n_n : DotDims S32768x512 S2048x512 S32768x2048 where
  lhsContracting := [1]
  rhsContracting := [1]
  lhsNonContracting := [0]
  rhsNonContracting := [0]
  lhsBatch := []
  rhsBatch := []
  wf := dot_S32768x512_S2048x512_S32768x2048_1_1_0_0_n_n_wf

class Facts : Prop extends Facts₀ where

variable [Facts]
-- ==== Proof.LibGridSums.lean ====
/-
  Sums over a plane cut into tiles, in any commutative additive monoid and for any sizes.
-/
import Mathlib.Algebra.BigOperators.Fin

namespace GridSums

variable {M : Type*} [AddCommMonoid M]

/-- A sum over A·B consecutive positions is the sum over A tiles of B positions each: position B·a + j is
    position j of tile a. -/
theorem sum_tiles (A B : ℕ) (g : ℕ → M) :
    ∑ i : Fin (A * B), g i.val = ∑ a : Fin A, ∑ j : Fin B, g (B * a.val + j.val) := by
  rw [← finProdFinEquiv.sum_comp, Fintype.sum_prod_type]
  refine Finset.sum_congr rfl fun a _ => Finset.sum_congr rfl fun j _ => ?_
  show g (j.val + B * a.val) = _
  rw [Nat.add_comm]

/-- A plane of (A·B) × (C·D) cut into A × C tiles of B × D, the tiles visited in row-major order s = 0 … A·C - 1
    (row tile s / C, column tile s % C): the sum over the visits of each tile's double sum is the double sum over
    the plane. This is what an accumulator that is reset before the first tile and added into at every tile holds
    after the last one, whatever the order of the visits inside the sum. -/
theorem sum_grid (A B C D : ℕ) (hC : 0 < C) (f : ℕ → ℕ → M) :
    ∑ s ∈ Finset.range (A * C), ∑ r : Fin B, ∑ l : Fin D, f (B * (s / C) + r.val) (D * (s % C) + l.val)
      = ∑ h : Fin (A * B), ∑ w : Fin (C * D), f h.val w.val := by
  rw [Finset.sum_range]
  refine (sum_tiles (M := M) A C (fun s => ∑ r : Fin B, ∑ l : Fin D, f (B * (s / C) + r.val) (D * (s % C) + l.val))).trans ?_
  have hR : ∑ h : Fin (A * B), ∑ w : Fin (C * D), f h.val w.val
      = ∑ a : Fin A, ∑ r : Fin B, ∑ w : Fin (C * D), f (B * a.val + r.val) w.val :=
    sum_tiles (M := M) A B (fun h => ∑ w : Fin (C * D), f h w.val)
  rw [hR]
  refine Finset.sum_congr rfl fun a _ => ?_
  rw [Finset.sum_comm]
  refine Finset.sum_congr rfl fun r _ => ?_
  have hW : ∑ w : Fin (C * D), f (B * a.val + r.val) w.val
      = ∑ c : Fin C, ∑ l : Fin D, f (B * a.val + r.val) (D * c.val + l.val) :=
    sum_tiles (M := M) C D (fun w => f (B * a.val + r.val) w)
  rw [hW]
  refine Finset.sum_congr rfl fun c _ => Finset.sum_congr rfl fun l _ => ?_
  have h1 : (C * a.val + c.val) / C = a.val := by
    rw [Nat.mul_add_div hC, Nat.div_eq_of_lt c.isLt, Nat.add_zero]
  have h2 : (C * a.val + c.val) % C = c.val := by
    rw [Nat.mul_add_mod, Nat.mod_eq_of_lt c.isLt]
  rw [h1, h2]

end GridSums
-- ==== Proof.Spec.lean ====
/-
  What the two programs compute, as functions of the three argument arrays over the extended reals.

  For node n and centroid k the masked distance is
      sqrt (max ((‖x_n‖² + ‖c_k‖²) - 2 · ⟨x_n, c_k⟩) ε) · mask_n,
  with ‖x_n‖² = 0 + ∑_d x(n,d)², ‖c_k‖² = 0 + ∑_d c(k,d)² and ⟨x_n, c_k⟩ = ∑_d x(n,d) · c(k,d).  The first result
  holds, for every centroid, the sum of the masked distances over all nodes divided by the sum of the mask; the second
  holds the masked distances themselves.

  The node axis is walked in 64 tiles of 512 rows, the tiles in two runs of 32; each run accumulates its tiles' column
  sums from zero, and the two runs' totals are added up afterwards.  Addition of extended reals is commutative and
  associative, so that regrouping is the plain sum over all 32768 nodes (`regroup`): no finiteness is needed.
-/
import Idealize.ShloMosaic.PureOps.Ideal
import Idealize.ShloMosaic.PureOps.Ideal.Laws
import Idealize.ShloMosaic.Lib.ValueIdx
import proofs.«168596_j59124519796877_2_alg».proof.Proof.LibGridSums

noncomputable section

namespace Cert.Spec

open Idealize.ShloMosaic Idealize.ShloMosaic.ValueIdx

/-- The shapes of the node features, the mask and the centroid table. -/
abbrev SX : Shape := ⟨2, ![32768, 512]⟩
abbrev SM : Shape := ⟨2, ![32768, 1]⟩
abbrev SC : Shape := ⟨2, ![2048, 512]⟩

/-- The three float words both programs use: zero, two and the floor ε under the square root. -/
abbrev zeroW : EReal := Ideal.ofBits .f32 0x00000000#32
abbrev twoW : EReal := Ideal.ofBits .f32 0x40000000#32
abbrev epsW : EReal := Ideal.ofBits .f32 0x2B8CBCCC#32

theorem zeroW_eq : zeroW = 0 := Ideal.ofBits_zero_f32

/-- The masked distance from a node's squared norm `a`, a centroid's squared norm `b`, their inner product `g` and the
    node's mask value `w`. -/
def maskedDist (a b g w : EReal) : EReal := Ideal.sqrt (max ((a + b) - twoW * g) epsW) * w

/-- The masked distance between node `n` and centroid `k`. -/
def entry (x : SX.Idx → EReal) (msk : SM.Idx → EReal) (cw : SC.Idx → EReal) (n : Fin 32768) (k : Fin 2048) : EReal :=
  maskedDist (zeroW + ∑ d : Fin 512, x (ix2 n d) * x (ix2 n d)) (zeroW + ∑ d : Fin 512, cw (ix2 k d) * cw (ix2 k d))
    (∑ d : Fin 512, x (ix2 n d) * cw (ix2 k d)) (msk (ix2 n (0 : Fin 1)))

/-- The same with the node named by a natural number (zero past the last node). -/
def entryN (x : SX.Idx → EReal) (msk : SM.Idx → EReal) (cw : SC.Idx → EReal) (n : ℕ) (k : Fin 2048) : EReal :=
  if h : n < 32768 then entry x msk cw ⟨n, h⟩ k else 0

theorem entryN_of_lt (x : SX.Idx → EReal) (msk : SM.Idx → EReal) (cw : SC.Idx → EReal) (n : ℕ) (h : n < 32768) (k : Fin 2048) :
    entryN x msk cw n k = entry x msk cw ⟨n, h⟩ k := dif_pos h

/-- The second result: every masked distance. -/
def dist (x : SX.Idx → EReal) (msk : SM.Idx → EReal) (cw : SC.Idx → EReal) : (⟨3, ![1, 32768, 2048]⟩ : Shape).Idx → EReal :=
  fun i => entry x msk cw (i 1) (i 2)

/-- The sum of the mask, from zero. -/
def maskTotal (msk : SM.Idx → EReal) : EReal := zeroW + ∑ j : SM.Idx, msk j

/-- The first result: per centroid, the masked distances summed over the nodes, from zero, over the mask's sum. -/
def graph (x : SX.Idx → EReal) (msk : SM.Idx → EReal) (cw : SC.Idx → EReal) : (⟨2, ![1, 2048]⟩ : Shape).Idx → EReal :=
  fun i => Ideal.div (zeroW + ∑ n : Fin 32768, entry x msk cw n (i 1)) (maskTotal msk)

/-- Tile `t`'s column sum: the 512 rows 512·t, …, 512·t + 511. -/
def tileSum (g : ℕ → EReal) (t : ℕ) : EReal := ∑ r : Fin 512, g (512 * t + r.val)

/-- What the accumulator of a run holds after the grid point `n` (points 32·o, …, 32·o + 31 form run `o`): zero plus the
    column sums of the run's tiles up to `n`. -/
def running (g : ℕ → EReal) (n : ℕ) : EReal := zeroW + ∑ s ∈ Finset.range (n % 32 + 1), tileSum g (32 * (n / 32) + s)

/-- At the first point of a run the accumulator holds zero plus that tile's sum. -/
theorem running_first (g : ℕ → EReal) (n : ℕ) (h : n % 32 = 0) : running g n = zeroW + tileSum g n := by
  unfold running
  rw [h, Finset.sum_range_one, Nat.add_zero]
  congr 2
  omega

/-- At a later point of a run it holds what it held at the point before plus this tile's sum. -/
theorem running_step (g : ℕ → EReal) (n : ℕ) (h : ¬n % 32 = 0) : running g n = running g (n - 1) + tileSum g n := by
  unfold running
  have h1 : (n - 1) / 32 = n / 32 := by omega
  have h2 : (n - 1) % 32 + 1 = n % 32 := by omega
  have h3 : 32 * (n / 32) + n % 32 = n := by omega
  rw [h1, h2, Finset.sum_range_succ, h3, add_assoc]

/-- The two runs' totals added up are the plain sum over all nodes. -/
theorem regroup (g : ℕ → EReal) :
    ∑ o : Fin 2, running g (32 * o.val + 31) = ∑ n : Fin 32768, g n.val := by
  have hrun : ∀ o : Fin 2, running g (32 * o.val + 31) = ∑ s : Fin 32, tileSum g (32 * o.val + s.val) := fun o => by
    unfold running
    have h1 : (32 * o.val + 31) / 32 = o.val := by omega
    have h2 : (32 * o.val + 31) % 32 + 1 = 32 := by omega
    rw [h1, h2, zeroW_eq, zero_add, Finset.sum_range]
  rw [Finset.sum_congr rfl fun o _ => hrun o]
  have e1 : ∑ n : Fin 32768, g n.val = ∑ t : Fin 64, ∑ r : Fin 512, g (512 * t.val + r.val) :=
    GridSums.sum_tiles (M := EReal) 64 512 g
  have e2 : ∑ t : Fin 64, tileSum g t.val = ∑ o : Fin 2, ∑ s : Fin 32, tileSum g (32 * o.val + s.val) :=
    GridSums.sum_tiles (M := EReal) 2 32 (tileSum g)
  rw [e1, ← e2]
  rfl

end Cert.Spec

end
-- ==== Proof.RefValue.lean ====
/-
  The reference's two results are the specification's two functions.

  Its second result multiplies, index by index, the square root of the floored squared distance by the mask; read at
  (0, n, k) every layout operation hands the index on unchanged, the two squared norms are host sums from zero over the
  512 features, and the inner products are the contraction of the two operands' last axes.  Its first result sums the
  second over the nodes, from zero, and divides by the mask's total.
-/
import proofs.«168596_j59124519796877_2_alg».proof.Proof.Gen.ReferenceIdeal.Read
import proofs.«168596_j59124519796877_2_alg».proof.Proof.Spec

noncomputable section

namespace Cert.ReferenceIdeal.RefValue

open Cert.ReferenceIdeal Cert.ReferenceIdeal.Read Idealize.ShloMosaic Idealize.ShloMosaic.ValueIdx Cert.Spec

variable (x0 : (⟨S32768x512, .f32⟩ : BufTy).Contents (Elt Ideal)) (x1 : (⟨S32768x1, .f32⟩ : BufTy).Contents (Elt Ideal))
  (x2 : (⟨S2048x512, .f32⟩ : BufTy).Contents (Elt Ideal))

/-- The features of node `i 1`, as the node's squared norm reads them. -/
theorem idx_sq_node (i : S1x32768x2048.Idx) (k : Fin 512) :
    idx_main_v1 (idx_main_v2 (idx_main_v7 (idx_main_v16 i))) k = ix2 (i 1) k :=
  funext fun a => Fin.ext (by match a with | ⟨0, _⟩ => rfl | ⟨1, _⟩ => rfl)

/-- The features of centroid `i 2`, as the centroid's squared norm reads them. -/
theorem idx_sq_cent (i : S1x32768x2048.Idx) (k : Fin 512) :
    idx_main_v4 (idx_main_v6 (idx_main_v8 (idx_main_v16 i))) k = ix2 (i 2) k :=
  funext fun a => Fin.ext (by match a with | ⟨0, _⟩ => rfl | ⟨1, _⟩ => rfl)

/-- The two operands of the inner product of node `i 1` and centroid `i 2`. -/
theorem idx_dot_node (i : S1x32768x2048.Idx) (k : Fin 512) : lidx_main_v5 (idx_main_v16 i) k = ix2 (i 1) k :=
  funext fun a => Fin.ext (by match a with | ⟨0, _⟩ => rfl | ⟨1, _⟩ => rfl)
theorem idx_dot_cent (i : S1x32768x2048.Idx) (k : Fin 512) : ridx_main_v5 (idx_main_v16 i) k = ix2 (i 2) k :=
  funext fun a => Fin.ext (by match a with | ⟨0, _⟩ => rfl | ⟨1, _⟩ => rfl)

/-- The mask value of node `i 1`. -/
theorem idx_mask (i : S1x32768x2048.Idx) : idx_main_v17 (idx_main_v18 i) = ix2 (i 1) (0 : Fin 1) :=
  funext fun a => Fin.ext (by match a with | ⟨0, _⟩ => rfl | ⟨1, _⟩ => rfl)

/-- The second result is the array of masked distances. -/
theorem dist_eq : val_main_v19 (F := Ideal) x0 x1 x2 = dist x0 x1 x2 := by
  funext i
  rw [val_main_v19_apply, val_main_v16_apply, val_main_v15_apply, val_main_v14_apply, val_main_v12_apply,
    val_main_v9_apply, val_main_v11_apply, val_main_v7_apply, val_main_v2_apply, val_main_v1_apply,
    val_main_v8_apply, val_main_v6_apply, val_main_v4_apply, val_main_v5_apply, val_main_v10_apply, val_main_v13_apply,
    val_main_v18_apply, val_main_v17_apply]
  simp only [val_main_v0_apply, val_main_v3_apply, val_main_cst_apply, val_main_cst_0_apply, val_main_cst_1_apply,
    val_main_cst_2_apply, idx_sq_node, idx_sq_cent, idx_dot_node, idx_dot_cent, idx_mask,
    Ideal.mulf_def, Ideal.addf_def, Ideal.subf_def, Ideal.maximumf_def, Ideal.hostUnary_sqrt_def, Ideal.ofBits_def]
  rfl

/-- The node `k` of column `i 1`, as the sum over the nodes reads the second result. -/
theorem idx_col (i : S1x2048.Idx) (k : Fin 32768) : idx_main_v20 i k = ix3 (i 0) k (i 1) :=
  funext fun a => Fin.ext (by match a with | ⟨0, _⟩ => rfl | ⟨1, _⟩ => rfl | ⟨2, _⟩ => rfl)

/-- The first result is the per-centroid mean of the masked distances. -/
theorem graph_eq : val_main_v23 (F := Ideal) x0 x1 x2 = graph x0 x1 x2 := by
  funext i
  rw [val_main_v23_apply, val_main_v20_apply, val_main_v22_apply, val_main_v21_apply, dist_eq]
  simp only [val_main_cst_3_apply, val_main_cst_4_apply, idx_col, Ideal.hostDivf_def, Ideal.ofBits_def]
  rfl

end Cert.ReferenceIdeal.RefValue

end
-- ==== Proof.Pieces.lean ====
/-
  What the body leaves in its two output blocks, as values of the blocks it loads (for any float values).

  Whether or not the point is the first of a run, the first output block is overwritten whole by the tile's masked
  distances behind a unit axis.  The second output block is overwritten whole by "what the block held, plus the tile's
  column sums": at the first point of a run the block is first set to zero and that zero block is what is read back; at
  every other point what is read back is what the point before left.
-/
import proofs.«168596_j59124519796877_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Bridge

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later point of a run the accumulated block becomes the block it held plus the tile's column sums. -/
theorem acc_later (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S1x1x2048 .f32) (harg7 : arg7.IsWhole) (hc0 : ¬cond0_0 i)
    (x0 : Vec F S512x512 .f32) (x1 : Vec F S512x1 .f32) (x2 : Vec F S2048x512 .bf16) (x3 : Vec F S1x2048 .f32) (xo5 : Vec F S1x1x2048 .f32) :
    out0_B_5 c i arg2 harg2 arg3 harg3 arg4 harg4 arg5 harg5 arg6 harg6 arg7 harg7 hc0 x0 x1 x2 x3 xo5 = k0_pay4 x0 x2 x3 x1 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread, harg7.read_unread,
    View.ld_unit_zero (S := S512x512) hz2, View.ld_unit_zero (S := S2048x512) hz2, View.ld_unit_zero (S := S1x2048) hz2,
    View.ld_unit_zero (S := S512x1) hz2, View.ld_unit_zero (S := S1x1x2048) hz3]

/-- At the first point of a run it becomes the zero block plus the tile's column sums. -/
theorem acc_first (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S1x1x2048 .f32) (harg7 : arg7.IsWhole) (hc0 : cond0_0 i)
    (x0 : Vec F S512x512 .f32) (x1 : Vec F S512x1 .f32) (x2 : Vec F S2048x512 .bf16) (x3 : Vec F S1x2048 .f32) :
    out0_A_5 c i arg2 harg2 arg3 harg3 arg4 harg4 arg5 harg5 arg6 harg6 arg7 harg7 hc0 x0 x1 x2 x3 = k0_pay4 x0 x2 x3 x1 (k0_pay1 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1x2048) hz3, View.readCov_unit_zero (S := S1x1x2048) _ hz3]
  simp only [View.readAt_eq_ld, harg2.read_unread, harg3.read_unread, harg4.read_unread, harg5.read_unread, harg7.read_unread,
    View.ld_unit_zero (S := S512x512) hz2, View.ld_unit_zero (S := S2048x512) hz2, View.ld_unit_zero (S := S1x2048) hz2,
    View.ld_unit_zero (S := S512x1) hz2, View.ld_unit_zero (S := S1x1x2048) hz3]

/-- At a later point of a run the distance block becomes the tile's masked distances. -/
theorem dist_later (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S1x1x2048 .f32) (harg7 : arg7.IsWhole) (hc0 : ¬cond0_0 i)
    (x0 : Vec F S512x512 .f32) (x1 : Vec F S512x1 .f32) (x2 : Vec F S2048x512 .bf16) (x3 : Vec F S1x2048 .f32) (xo5 : Vec F S1x1x2048 .f32) :
    out0_B_4 c i arg2 harg2 arg3 harg3 arg4 harg4 arg5 harg5 arg6 harg6 arg7 harg7 hc0 x0 x1 x2 x3 xo5 = k0_pay3 x0 x2 x3 x1 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread, harg7.read_unread,
    View.ld_unit_zero (S := S512x512) hz2, View.ld_unit_zero (S := S2048x512) hz2, View.ld_unit_zero (S := S1x2048) hz2,
    View.ld_unit_zero (S := S512x1) hz2, View.ld_unit_zero (S := S1x1x2048) hz3]

/-- At the first point of a run likewise. -/
theorem dist_first (c : Dev nD) (i : grid0.Coords) (arg2 : Memref sig .tc .vmem S512x512 .f32) (harg2 : arg2.IsWhole) (arg3 : Memref sig .tc .vmem S512x1 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x512x2048 .f32) (harg6 : arg6.IsWhole) (arg7 : Memref sig .tc .vmem S1x1x2048 .f32) (harg7 : arg7.IsWhole) (hc0 : cond0_0 i)
    (x0 : Vec F S512x512 .f32) (x1 : Vec F S512x1 .f32) (x2 : Vec F S2048x512 .bf16) (x3 : Vec F S1x2048 .f32) :
    out0_A_4 c i arg2 harg2 arg3 harg3 arg4 harg4 arg5 harg5 arg6 harg6 arg7 harg7 hc0 x0 x1 x2 x3 = k0_pay3 x0 x2 x3 x1 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, harg7.read_unread,
    View.ld_unit_zero (S := S512x512) hz2, View.ld_unit_zero (S := S2048x512) hz2, View.ld_unit_zero (S := S1x2048) hz2,
    View.ld_unit_zero (S := S512x1) hz2, View.ld_unit_zero (S := S1x1x2048) hz3]

end Cert.KernelIdeal.Bridge

end
-- ==== Proof.Blocks.lean ====
/-
  The blocks the body loads at a grid point, as entries of the arrays the region finds.

  Point t (of 64) works on the 512 node rows 512·t, …, 512·t + 511: the node block's entry (r, d) is the node array's
  entry (512·t + r, d) and the mask block's entry (r, 0) is the mask's entry (512·t + r, 0).  The centroid table and the
  row of the centroids' squared norms are loaded whole at every point.  Before the region the table is only changed in
  float format and the row is the host's sum from zero of the squared entries of each centroid, laid out as one row.
-/
import proofs.«168596_j59124519796877_2_alg».proof.Proof.Gen.KernelIdeal.Frame
import proofs.«168596_j59124519796877_2_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem

namespace Cert.KernelIdeal.Bridge

open Cert.KernelIdeal Cert.KernelIdeal.Gen Idealize.ShloMosaic.ValueIdx Cert.Spec

variable (m : (ℓ : Loc nD τ sig) → Buf (Elt Ideal) ℓ)

/-- The three argument arrays as launched, as arrays of extended reals. -/
abbrev nodes (c : Dev nD) : SX.Idx → EReal := m ((c : Thread nD τ).loc main_arg0)
abbrev mask (c : Dev nD) : SM.Idx → EReal := m ((c : Thread nD τ).loc main_arg1)
abbrev cents (c : Dev nD) : SC.Idx → EReal := m ((c : Thread nD τ).loc main_arg2)

/-- Where each window's block sits at point `t`: the node, mask and distance blocks at tile `t`, the accumulated block at
    run `t / 32`, the two resident operands at the origin. -/
theorem index_node : ∀ t : Fin cfg0.N, win0_0.index t 0 = t.val ∧ win0_0.index t 1 = 0 :=
  (by decide +kernel : ∀ t : Fin grid0.N, win0_0.index t 0 = t.val ∧ win0_0.index t 1 = 0)
theorem index_mask : ∀ t : Fin cfg0.N, win0_1.index t 0 = t.val ∧ win0_1.index t 1 = 0 :=
  (by decide +kernel : ∀ t : Fin grid0.N, win0_1.index t 0 = t.val ∧ win0_1.index t 1 = 0)
theorem index_cent : ∀ t : Fin cfg0.N, win0_2.index t 0 = 0 ∧ win0_2.index t 1 = 0 :=
  (by decide +kernel : ∀ t : Fin grid0.N, win0_2.index t 0 = 0 ∧ win0_2.index t 1 = 0)
theorem index_norms : ∀ t : Fin cfg0.N, win0_3.index t 0 = 0 ∧ win0_3.index t 1 = 0 :=
  (by decide +kernel : ∀ t : Fin grid0.N, win0_3.index t 0 = 0 ∧ win0_3.index t 1 = 0)
theorem index_dist : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index_acc : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)

/-- The node block at point `t`, entry (r, d): the node array's entry (512·t + r, d). -/
theorem node_block (c : Dev nD) (t : Fin cfg0.N) (r d : Fin 512) (R : Fin 32768) (hR : R.val = 512 * t.val + r.val) :
    iblk m c 0 t (ix2 r d) = V m c main_arg0 (ix2 R d) := by
  unfold iblk
  rw [View.read_apply]
  show V m c main_arg0 _ = V m c main_arg0 _
  refine congrArg (V m c main_arg0) ?_
  funext a; apply Fin.ext
  match a with
  | ⟨0, _⟩ => show win0_0.index t 0 * 512 + 1 * r.val = R.val; rw [(index_node t).1]; omega
  | ⟨1, _⟩ => show win0_0.index t 1 * 512 + 1 * d.val = d.val; rw [(index_node t).2]; omega

/-- The mask block at point `t`, entry (r, 0): the mask's entry (512·t + r, 0). -/
theorem mask_block (c : Dev nD) (t : Fin cfg0.N) (r : Fin 512) (z : Fin 1) (R : Fin 32768) (hR : R.val = 512 * t.val + r.val) :
    iblk m c 1 t (ix2 r z) = V m c main_arg1 (ix2 R z) := by
  unfold iblk
  rw [View.read_apply]
  show V m c main_arg1 _ = V m c main_arg1 _
  refine congrArg (V m c main_arg1) ?_
  funext a; apply Fin.ext
  match a with
  | ⟨0, _⟩ => show win0_1.index t 0 * 512 + 1 * r.val = R.val; rw [(index_mask t).1]; omega
  | ⟨1, _⟩ => show win0_1.index t 1 * 1 + 1 * z.val = z.val; rw [(index_mask t).2]; omega

/-- The centroid block is the whole table the region finds. -/
theorem cent_block (c : Dev nD) (t : Fin cfg0.N) (k : Fin 2048) (d : Fin 512) :
    iblk m c 2 t (ix2 k d) = V m c main_v0 (ix2 k d) := by
  unfold iblk
  rw [View.read_apply]
  show V m c main_v0 _ = V m c main_v0 _
  refine congrArg (V m c main_v0) ?_
  funext a; apply Fin.ext
  match a with
  | ⟨0, _⟩ => show win0_2.index t 0 * 2048 + 1 * k.val = k.val; rw [(index_cent t).1]; omega
  | ⟨1, _⟩ => show win0_2.index t 1 * 512 + 1 * d.val = d.val; rw [(index_cent t).2]; omega

/-- The block of squared norms is the whole row the region finds. -/
theorem norms_block (c : Dev nD) (t : Fin cfg0.N) (z : Fin 1) (k : Fin 2048) :
    iblk m c 3 t (ix2 z k) = V m c main_v3 (ix2 z k) := by
  unfold iblk
  rw [View.read_apply]
  show V m c main_v3 _ = V m c main_v3 _
  refine congrArg (V m c main_v3) ?_
  funext a; apply Fin.ext
  match a with
  | ⟨0, _⟩ => show win0_3.index t 0 * 1 + 1 * z.val = z.val; rw [(index_norms t).1]; omega
  | ⟨1, _⟩ => show win0_3.index t 1 * 2048 + 1 * k.val = k.val; rw [(index_norms t).2]; omega

/-- Before the region the table only changes its float format. -/
theorem table_found (c : Dev nD) :
    @Eq (FVec Ideal S2048x512 .bf16) (V m c main_v0) (truncf (F := Ideal) .bf16 (cents m c) bitsLt_bf16_f32) := by
  dsimp only [V, V0]
  simp only [hostOps0, List.flatten_cons, List.flatten_nil, List.append_nil, List.cons_append, List.nil_append]
  after_results
  try rfl

/-- Before the region the row of squared norms is computed from the table. -/
theorem norms_found (c : Dev nD) :
    @Eq (FVec Ideal S1x2048 .f32) (V m c main_v3)
      (broadcastInDim S1x2048 ![1] bcast_S2048_S1x2048_1
          (Host.reduceAdd (F := Ideal) (mulf (F := Ideal) (φ := .f32) (cents m c) (cents m c))
            (constant (F := Ideal) S_ .f32 0x00000000#32) reducesTo_S2048x512_S2048_d1 h_S_)) := by
  dsimp only [V, V0]
  simp only [hostOps0, List.flatten_cons, List.flatten_nil, List.append_nil, List.cons_append, List.nil_append]
  after_results
  try rfl

/-- The table the region finds, at an entry. -/
theorem table_apply (c : Dev nD) (k : Fin 2048) (d : Fin 512) :
    @Eq EReal (V m c main_v0 (ix2 k d)) (cents m c (ix2 k d)) :=
  congrFun (table_found m c) (ix2 k d)

/-- The row of squared norms the region finds, at centroid `k`: zero plus the sum of the squared entries. -/
theorem norms_apply (c : Dev nD) (z : Fin 1) (k : Fin 2048) :
    @Eq EReal (V m c main_v3 (ix2 z k)) (zeroW + ∑ d : Fin 512, cents m c (ix2 k d) * cents m c (ix2 k d)) := by
  refine (congrFun (norms_found m c) (ix2 z k)).trans ?_
  generalize cents m c = C
  refine (broadcastInDim_apply _ bcast_S2048_S1x2048_1 _ (ix2 z k) (ix1 k) (fun a => match a with
    | ⟨0, _⟩ => by show k.val = if (2048 : Nat) = 1 then 0 else k.val; rw [if_neg (by decide)])).trans ?_
  simp only [Host.reduceAdd, Ideal.hostReduceAdd_def]
  rw [Ideal.hostReduceAdd_single reducesTo_S2048x512_S2048_d1 (by decide)]
  refine congrArg (_ + ·) (Finset.sum_congr rfl fun d _ => ?_)
  show C _ * C _ = C (ix2 k d) * C (ix2 k d)
  have e : (by decide : S2048x512.Reduces [1] S2048).lift (ix1 k) d = ix2 k d :=
    funext fun a => Fin.ext (by match a with | ⟨0, _⟩ => rfl | ⟨1, _⟩ => rfl)
  rw [e]
  rfl

end Cert.KernelIdeal.Bridge

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.Payload.lean ====
/-
  The body's arithmetic read at an index, over the extended reals.

  From a tile of 512 node rows `xs`, the whole centroid table `cs`, the row `c2` of the centroids' squared norms and the
  tile's mask column `ms`, the body forms for row r and centroid k
      sqrt (max ((∑_d xs(r,d)² + c2(0,k)) - 2 · ∑_d xs(r,d) · cs(k,d)) ε) · ms(r,0):
  the row's squared norm is a sum along the row kept as a column and spread over the centroids, the inner products are
  the product of the tile with the transposed table into a zero accumulator, and a change of float format is the
  identity.  The first output block is this array with a unit axis in front; the second adds to the running block the
  array's column sums.
-/
import proofs.«168596_j59124519796877_2_alg».proof.Proof.Gen.KernelIdeal.Skeleton
import proofs.«168596_j59124519796877_2_alg».proof.Proof.Spec
import proofs.«168596_j59124519796877_2_alg».proof.Proof.LibRowMatmul
import proofs.«168596_j59124519796877_2_alg».proof.Proof.LibColumnForms
import Idealize.ShloMosaic.Lib.ValueLayout
import Idealize.ShloMosaic.Lib.Pipeline.Value

noncomputable section

namespace Cert.KernelIdeal.Bridge

open Cert.KernelIdeal Cert.KernelIdeal.Gen Idealize.ShloMosaic Idealize.ShloMosaic.ValueIdx Cert.Spec

/-- The square root of an array, read at an index. -/
theorem sqrt_apply {s : Shape} {φ : FTy} (v : FVec Ideal s φ) (i : s.Idx) : sqrt v i = Ideal.sqrt (v i) := rfl

/-- The output row of the matrix product is the left operand's row; -/
theorem dot_lhs_row (j : S512x2048.Idx) (q : dot_S512x512_S2048x512_S512x2048_1_1_0_0_n_n.contr.Idx) :
    (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

/-- its output column is the right operand's row (the table enters transposed). -/
theorem dot_rhs_row (j : S512x2048.Idx) (q : dot_S512x512_S2048x512_S512x2048_1_1_0_0_n_n.contr.Idx) :
    (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

variable (xs : FVec Ideal S512x512 .f32) (cs : FVec Ideal S2048x512 .bf16) (c2 : FVec Ideal S1x2048 .f32)
  (ms : FVec Ideal S512x1 .f32)

/-- The masked distances of a tile, read at row `r` and centroid `k`. -/
theorem tile_apply (r : Fin 512) (k : Fin 2048) :
    k0_pay2 (F := Ideal) xs cs c2 ms (ix2 r k)
      = maskedDist (∑ d : Fin 512, xs (ix2 r d) * xs (ix2 r d)) (c2 (ix2 (0 : Fin 1) k))
          (∑ d : Fin 512, xs (ix2 r d) * cs (ix2 k d)) (ms (ix2 r (0 : Fin 1))) := by
  have hnorm : broadcastTo S512x2048 (shapeCast S512x1 (multiReduction .add [1] S512 (mulf xs xs) 0x00000000#32
        reduces_S512x512_S512 (.inl rfl) rfl) shapeCasts_S512_S512x1) broadcasts_S512x1_S512x2048 (ix2 r k)
      = ∑ d : Fin 512, xs (ix2 r d) * xs (ix2 r d) :=
    (Cert.Lib.ColumnForms.broadcastTo_a1_ab_apply _ broadcasts_S512x1_S512x2048 r k).trans
      ((Cert.Lib.ColumnForms.shapeCast_a_a1_apply _ shapeCasts_S512_S512x1 r 0).trans
        (Cert.Lib.ColumnForms.rowSum_apply (mulf xs xs) 0x00000000#32 reduces_S512x512_S512 (.inl rfl) rfl r))
  have hc2 : broadcastTo S512x2048 (shapeCast S1x2048 c2 shapeCasts_S1x2048_S1x2048) broadcasts_S1x2048_S512x2048 (ix2 r k)
      = c2 (ix2 (0 : Fin 1) k) :=
    (broadcastTo_1b_ab_apply _ broadcasts_S1x2048_S512x2048 r k).trans (by rw [shapeCast_self])
  have hdot : matmul dot_S512x512_S2048x512_S512x2048_1_1_0_0_n_n none (truncf .bf16 xs bitsLt_bf16_f32)
        (shapeCast S2048x512 cs shapeCasts_S2048x512_S2048x512) (constant S512x2048 .f32 0x00000000#32) (ix2 r k)
      = ∑ d : Fin 512, xs (ix2 r d) * cs (ix2 k d) :=
    (Cert.Lib.RowMatmul.matmul_rows_apply dot_S512x512_S2048x512_S512x2048_1_1_0_0_n_n rfl rfl rfl rfl
      dot_lhs_row dot_rhs_row none (truncf .bf16 xs bitsLt_bf16_f32) (shapeCast S2048x512 cs shapeCasts_S2048x512_S2048x512) r k).trans
      (by rw [shapeCast_self]; rfl)
  have hmask : broadcastTo S512x2048 ms broadcasts_S512x1_S512x2048 (ix2 r k) = ms (ix2 r (0 : Fin 1)) :=
    Cert.Lib.ColumnForms.broadcastTo_a1_ab_apply ms broadcasts_S512x1_S512x2048 r k
  unfold k0_pay2 maskedDist
  simp only [mulf_apply, addf_apply, subf_apply, maximumf_apply, sqrt_apply, broadcast_apply]
  rw [hnorm, hc2, hdot, hmask]
  rfl

/-- The first output block is the tile's array behind a unit axis. -/
theorem block_apply (u : Fin 1) (r : Fin 512) (k : Fin 2048) :
    k0_pay3 (F := Ideal) xs cs c2 ms (ix3 u r k) = k0_pay2 (F := Ideal) xs cs c2 ms (ix2 r k) := by
  unfold k0_pay3
  exact shapeCast_ab_1ab_apply (k0_pay2 (F := Ideal) xs cs c2 ms) shapeCasts_S512x2048_S1x512x2048 u r k

/-- The second output block: the running block plus the tile's column sums. -/
theorem acc_apply (acc : FVec Ideal S1x1x2048 .f32) (u v : Fin 1) (k : Fin 2048) :
    k0_pay4 (F := Ideal) xs cs c2 ms acc (ix3 u v k)
      = acc (ix3 u v k) + ∑ r : Fin 512, k0_pay2 (F := Ideal) xs cs c2 ms (ix2 r k) := by
  have hsum : shapeCast S1x1x2048 (shapeCast S1x2048 (multiReduction .add [0] S2048 (k0_pay2 (F := Ideal) xs cs c2 ms) 0x00000000#32
        reduces_S512x2048_S2048 (.inl rfl) rfl) shapeCasts_S2048_S1x2048) shapeCasts_S1x2048_S1x1x2048 (ix3 u v k)
      = ∑ r : Fin 512, k0_pay2 (F := Ideal) xs cs c2 ms (ix2 r k) :=
    (shapeCast_ab_1ab_apply _ shapeCasts_S1x2048_S1x1x2048 u v k).trans
      ((shapeCast_a_1a_apply _ shapeCasts_S2048_S1x2048 v k).trans
        (Cert.Lib.ColumnForms.colSum_apply (k0_pay2 (F := Ideal) xs cs c2 ms) 0x00000000#32 reduces_S512x2048_S2048 (.inl rfl) rfl k))
  unfold k0_pay4
  simp only [addf_apply]
  rw [hsum, shapeCast_self]

end Cert.KernelIdeal.Bridge

end
-- ==== Proof.Running.lean ====
/-
  What the two output blocks hold after each grid point.

  After point t the distance block holds the masked distances of tile t: its entry (0, r, k) is the masked distance
  between node 512·t + r and centroid k.  The accumulated block holds, at (0, 0, k), zero plus the column sums of the
  tiles of the current run up to t: at the first point of a run the zero block plus that tile's column sums, at every
  later point what the point before left plus this tile's column sums (induction on the point).
-/
import proofs.«168596_j59124519796877_2_alg».proof.Proof.Pieces
import proofs.«168596_j59124519796877_2_alg».proof.Proof.Blocks
import proofs.«168596_j59124519796877_2_alg».proof.Proof.Payload

noncomputable section

open Idealize.ShloMosaic Idealize.ShloMosaic.TcCoe Idealize.SL.Sem

namespace Cert.KernelIdeal.Bridge

open Cert.KernelIdeal Cert.KernelIdeal.Gen Idealize.ShloMosaic.ValueIdx Cert.Spec

variable (m : (ℓ : Loc nD τ sig) → Buf (Elt Ideal) ℓ)

/-- The masked distances the body forms at point `t` are the specification's, for the rows of tile `t`. -/
theorem tile_entry (c : Dev nD) (t : Fin cfg0.N) (r : Fin 512) (k : Fin 2048) :
    k0_pay2 (F := Ideal) (iblk m c 0 t) (iblk m c 2 t) (iblk m c 3 t) (iblk m c 1 t) (ix2 r k)
      = entryN (nodes m c) (mask m c) (cents m c) (512 * t.val + r.val) k := by
  have hN : t.val < 64 := lt_of_lt_of_eq t.isLt N_0
  have hlt : 512 * t.val + r.val < 32768 := by have := r.isLt; omega
  rw [entryN_of_lt _ _ _ _ hlt]
  refine (tile_apply (iblk m c 0 t) (iblk m c 2 t) (iblk m c 3 t) (iblk m c 1 t) r k).trans ?_
  unfold entry
  have hx : ∀ d : Fin 512, iblk m c 0 t (ix2 r d) = nodes m c (ix2 ⟨512 * t.val + r.val, hlt⟩ d) := fun d =>
    (node_block m c t r d ⟨512 * t.val + r.val, hlt⟩ rfl).trans (congrFun (V_main_arg0 m c) _)
  have hm : iblk m c 1 t (ix2 r (0 : Fin 1)) = mask m c (ix2 ⟨512 * t.val + r.val, hlt⟩ (0 : Fin 1)) :=
    (mask_block m c t r 0 ⟨512 * t.val + r.val, hlt⟩ rfl).trans (congrFun (V_main_arg1 m c) _)
  have hc : ∀ d : Fin 512, iblk m c 2 t (ix2 k d) = cents m c (ix2 k d) := fun d =>
    (cent_block m c t k d).trans (table_apply m c k d)
  have hn : iblk m c 3 t (ix2 (0 : Fin 1) k) = zeroW + ∑ d : Fin 512, cents m c (ix2 k d) * cents m c (ix2 k d) :=
    (norms_block m c t 0 k).trans (norms_apply m c 0 k)
  have h0 : ∀ s : EReal, zeroW + s = s := fun s => by rw [zeroW_eq, zero_add]
  rw [hm, hn, h0 (∑ d : Fin 512, nodes m c (ix2 ⟨512 * t.val + r.val, hlt⟩ d) * nodes m c (ix2 ⟨512 * t.val + r.val, hlt⟩ d))]
  simp only [hx, hc]

/-- The distance block after point `t`. -/
theorem dist_after (c : Dev nD) (t : Fin cfg0.N) :
    (outsAt0 m c t.val t.isLt).1 = k0_pay3 (F := Ideal) (iblk m c 0 t) (iblk m c 2 t) (iblk m c 3 t) (iblk m c 1 t) := by
  by_cases h0 : t.val % 32 = 0
  · rw [outsAt0_A m c t h0]
    dsimp only
    exact dist_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)
  · rw [outsAt0_B m c t h0]
    dsimp only
    exact dist_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) _

/-- The running column sums after point `n`, as an accumulated block. -/
def accAfter (c : Dev nD) (n : ℕ) : FVec Ideal S1x1x2048 .f32 :=
  fun j => running (fun p => entryN (nodes m c) (mask m c) (cents m c) p (j 2)) n

/-- A tile's column sums as the body forms them are the specification's tile sum. -/
theorem tile_colsum (c : Dev nD) (t : Fin cfg0.N) (k : Fin 2048) :
    ∑ r : Fin 512, k0_pay2 (F := Ideal) (iblk m c 0 t) (iblk m c 2 t) (iblk m c 3 t) (iblk m c 1 t) (ix2 r k)
      = tileSum (fun p => entryN (nodes m c) (mask m c) (cents m c) p k) t.val :=
  Finset.sum_congr rfl fun r _ => tile_entry m c t r k

/-- The first point of a run: the zero block plus the tile's column sums. -/
theorem first_eq (c : Dev nD) (t : Fin cfg0.N) (h0 : t.val % 32 = 0) :
    k0_pay4 (F := Ideal) (iblk m c 0 t) (iblk m c 2 t) (iblk m c 3 t) (iblk m c 1 t) (k0_pay1 (F := Ideal)) = accAfter m c t.val := by
  funext j
  obtain ⟨u, v, k, rfl⟩ : ∃ (u v : Fin 1) (k : Fin 2048), j = ix3 u v k := ⟨j 0, j 1, j 2, eq_ix3 j⟩
  rw [acc_apply, tile_colsum]
  exact (running_first _ t.val h0).symm

/-- A later point of a run: what the point before left plus the tile's column sums. -/
theorem later_eq (c : Dev nD) (t : Fin cfg0.N) (h0 : ¬t.val % 32 = 0) :
    k0_pay4 (F := Ideal) (iblk m c 0 t) (iblk m c 2 t) (iblk m c 3 t) (iblk m c 1 t) (accAfter m c (t.val - 1)) = accAfter m c t.val := by
  funext j
  obtain ⟨u, v, k, rfl⟩ : ∃ (u v : Fin 1) (k : Fin 2048), j = ix3 u v k := ⟨j 0, j 1, j 2, eq_ix3 j⟩
  rw [acc_apply, tile_colsum]
  exact (running_step _ t.val h0).symm

/-- The accumulated block after each point holds the running column sums. -/
theorem acc_after (c : Dev nD) : ∀ (n : ℕ) (h : n < cfg0.N), (outsAt0 m c n h).2 = accAfter m c n
  | 0, h => by
    rw [outsAt0_A m c ⟨0, h⟩ rfl]
    dsimp only
    exact (acc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩) (iblk m c 3 ⟨0, h⟩)).trans (first_eq m c ⟨0, h⟩ rfl)
  | n + 1, h => by
    by_cases h0 : (n + 1) % 32 = 0
    · rw [outsAt0_A m c ⟨n + 1, h⟩ h0]
      dsimp only
      exact (acc_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (first_eq m c ⟨n + 1, h⟩ h0)
    · rw [outsAt0_B m c ⟨n + 1, h⟩ h0]
      dsimp only
      refine (acc_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) _).trans ?_
      show k0_pay4 (F := Ideal) (iblk m c 0 ⟨n + 1, h⟩) (iblk m c 2 ⟨n + 1, h⟩) (iblk m c 3 ⟨n + 1, h⟩) (iblk m c 1 ⟨n + 1, h⟩) (outsAt0 m c n _).2 = _
      rw [acc_after c n]
      exact later_eq m c ⟨n + 1, h⟩ h0

end Cert.KernelIdeal.Bridge

end
-- ==== Proof.Arrays.lean ====
/-
  The two arrays the region leaves.

  Every point writes its distance block back, and block t of the distance array is rows 512·t, …, 512·t + 511: the 64
  blocks tile the array, so it ends holding every masked distance.  The accumulated block of run o is written back once,
  after the run's last point 32·o + 31, into row o of the array of partial sums: that array ends holding, at (o, 0, k),
  zero plus the column sums of the 32 tiles of run o.
-/
import proofs.«168596_j59124519796877_2_alg».proof.Proof.Running

noncomputable section

open Idealize.ShloMosaic Idealize.ShloMosaic.TcCoe Idealize.SL.Sem
open Idealize.ShloMosaic.Pipeline (Dat)

namespace Cert.KernelIdeal.Bridge

open Cert.KernelIdeal Cert.KernelIdeal.Gen Idealize.ShloMosaic.ValueIdx Cert.Spec

variable (m : (ℓ : Loc nD τ sig) → Buf (Elt Ideal) ℓ)

/-! ## The array of masked distances -/

/-- What point `t` writes back is block `t` of the array of masked distances. -/
theorem dist_flushed (c : Dev nD) (t : Fin cfg0.N) :
    (dats m 0 c).flushed 4 t
      = ((cfg0.win 4).blk t).view.read (Elt Ideal) (dist (nodes m c) (mask m c) (cents m c)) := by
  show (cfg0.win 4).cut (grid0.coords t) ((dats m 0 c).after 4 t) = _
  rw [after0_4, dist_after]
  funext y
  obtain ⟨u, r, k, rfl⟩ : ∃ (u : Fin 1) (r : Fin 512) (k : Fin 2048), y = ix3 u r k := ⟨y 0, y 1, y 2, eq_ix3 y⟩
  have hN : t.val < 64 := lt_of_lt_of_eq t.isLt N_0
  have hlt : 512 * t.val + r.val < 32768 := by have := r.isLt; omega
  show k0_pay3 (F := Ideal) (iblk m c 0 t) (iblk m c 2 t) (iblk m c 3 t) (iblk m c 1 t) (ix3 u r k)
    = dist (nodes m c) (mask m c) (cents m c) (((cfg0.win 4).blk t).view.emb (ix3 u r k))
  rw [block_apply, tile_entry, entryN_of_lt _ _ _ _ hlt]
  unfold Cert.Spec.dist
  have e1 : (((cfg0.win 4).blk t).view.emb (ix3 u r k)) 1 = (⟨512 * t.val + r.val, hlt⟩ : Fin 32768) :=
    Fin.ext (by show win0_4.index t 1 * 512 + 1 * r.val = 512 * t.val + r.val; rw [(index_dist t).2.1]; omega)
  have e2 : (((cfg0.win 4).blk t).view.emb (ix3 u r k)) 2 = k :=
    Fin.ext (by show win0_4.index t 2 * 2048 + 1 * k.val = k.val; rw [(index_dist t).2.2]; omega)
  rw [e1, e2]

/-- An entry of the distance array is in point `t`'s block iff each coordinate is in the block's range. -/
theorem mem_dist_block (t : Fin cfg0.N) (i : S1x32768x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4_0).slice (win0_4.rect t)).set ↔ _
  rw [View.set_slice_whole, Rect.mem_set_unit]
  exact Iff.rfl

/-- Row n of the distance array is written back by the point n / 512. -/
theorem dist_cover (i : S1x32768x2048.Idx) :
    ∃ t : Fin cfg0.N, (cfg0.win 4).flush t = true ∧ i ∈ ((cfg0.win 4).blk t).view.set := by
  have h0 : (i 0).val < 1 := (i 0).isLt
  have h1 : (i 1).val < 32768 := (i 1).isLt
  have h2 : (i 2).val < 2048 := (i 2).isLt
  have hN : cfg0.N = 64 := N_0
  obtain ⟨t, ht⟩ : ∃ t : Fin cfg0.N, t.val = (i 1).val / 512 := ⟨⟨(i 1).val / 512, by rw [hN]; omega⟩, rfl⟩
  refine ⟨t, flush0_4 t, ?_⟩
  rw [mem_dist_block]
  obtain ⟨e0, e1, e2⟩ := index_dist t
  intro a
  match a with
  | ⟨0, _⟩ => show win0_4.index t 0 * 1 ≤ (i 0).val ∧ (i 0).val < win0_4.index t 0 * 1 + 1; rw [e0]; omega
  | ⟨1, _⟩ => show win0_4.index t 1 * 512 ≤ (i 1).val ∧ (i 1).val < win0_4.index t 1 * 512 + 512; rw [e1]; omega
  | ⟨2, _⟩ => show win0_4.index t 2 * 2048 ≤ (i 2).val ∧ (i 2).val < win0_4.index t 2 * 2048 + 2048; rw [e2]; omega

/-- The distance array after the region. -/
theorem dist_final (c : Dev nD) :
    (dats m 0 c).arrAt 4 cfg0.N = dist (nodes m c) (mask m c) (cents m c) :=
  (dats m 0 c).arrAt_eq_of_cover 4 (dist (nodes m c) (mask m c) (cents m c)) (fun t _ => dist_flushed m c t) dist_cover

/-! ## The array of the runs' partial sums -/

/-- Run `o`'s total for centroid `k`: zero plus the column sums of the run's 32 tiles. -/
def partials (c : Dev nD) : S2x1x2048.Idx → EReal :=
  fun i => running (fun p => entryN (nodes m c) (mask m c) (cents m c) p (i 2)) (32 * (i 0).val + 31)

/-- The one write-back of a run, after its last point, writes the run's total. -/
theorem acc_flushed (c : Dev nD) (t : Fin cfg0.N) (hf : (cfg0.win 5).flush t = true) :
    (dats m 0 c).flushed 5 t = ((cfg0.win 5).blk t).view.read (Elt Ideal) (partials m c) := by
  have h31 : t.val % 32 = 31 := (flush0_5 t).mp hf
  show (cfg0.win 5).cut (grid0.coords t) ((dats m 0 c).after 5 t) = _
  rw [after0_5, acc_after]
  funext y
  obtain ⟨u, v, k, rfl⟩ : ∃ (u v : Fin 1) (k : Fin 2048), y = ix3 u v k := ⟨y 0, y 1, y 2, eq_ix3 y⟩
  show accAfter m c t.val (ix3 u v k) = partials m c (((cfg0.win 5).blk t).view.emb (ix3 u v k))
  unfold accAfter partials
  have e0 : ((((cfg0.win 5).blk t).view.emb (ix3 u v k)) 0).val = t.val / 32 := by
    show win0_5.index t 0 * 1 + 1 * u.val = t.val / 32
    rw [(index_acc t).1]; have := u.isLt; omega
  have e2 : (((cfg0.win 5).blk t).view.emb (ix3 u v k)) 2 = k :=
    Fin.ext (by show win0_5.index t 2 * 2048 + 1 * k.val = k.val; rw [(index_acc t).2.2]; omega)
  rw [e0, e2]
  have e : 32 * (t.val / 32) + 31 = t.val := by omega
  rw [e]

/-- An entry of the array of partial sums is in point `t`'s block iff each coordinate is in the block's range. -/
theorem mem_acc_block (t : Fin cfg0.N) (i : S2x1x2048.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v4_1).slice (win0_5.rect t)).set ↔ _
  rw [View.set_slice_whole, Rect.mem_set_unit]
  exact Iff.rfl

/-- Row o of the array of partial sums is written back by the last point of run o. -/
theorem acc_cover (i : S2x1x2048.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 2048 := (i 2).isLt
  have hN : cfg0.N = 64 := N_0
  obtain ⟨t, ht⟩ : ∃ t : Fin cfg0.N, t.val = 32 * (i 0).val + 31 := ⟨⟨32 * (i 0).val + 31, by rw [hN]; omega⟩, rfl⟩
  refine ⟨t, (flush0_5 t).mpr (by omega), ?_⟩
  rw [mem_acc_block]
  obtain ⟨e0, e1, e2⟩ := index_acc t
  intro a
  match a with
  | ⟨0, _⟩ => show win0_5.index t 0 * 1 ≤ (i 0).val ∧ (i 0).val < win0_5.index t 0 * 1 + 1; rw [e0]; omega
  | ⟨1, _⟩ => show win0_5.index t 1 * 1 ≤ (i 1).val ∧ (i 1).val < win0_5.index t 1 * 1 + 1; rw [e1]; omega
  | ⟨2, _⟩ => show win0_5.index t 2 * 2048 ≤ (i 2).val ∧ (i 2).val < win0_5.index t 2 * 2048 + 2048; rw [e2]; omega

/-- The array of partial sums after the region. -/
theorem acc_final (c : Dev nD) : (dats m 0 c).arrAt 5 cfg0.N = partials m c :=
  (dats m 0 c).arrAt_eq_of_cover 5 (partials m c) (acc_flushed m c) acc_cover

end Cert.KernelIdeal.Bridge

end
-- ==== Proof.Results.lean ====
/-
  The host operations after the region, and the kernel program's two results.

  After the region the host adds the two runs' partial sums (a sum, from zero, over the first two axes of the
  [2, 1, 2048] array), divides by the sum of the mask and lays the quotients out as one row.  The two runs' totals are
  the plain sum over all nodes (the specification's `regroup`), so the first result is the specification's mean of the
  masked distances; the second result is the distance array the region left.
-/
import proofs.«168596_j59124519796877_2_alg».proof.Proof.Arrays

noncomputable section

open Idealize.ShloMosaic Idealize.ShloMosaic.TcCoe Idealize.SL.Sem
open Idealize.ShloMosaic.Pipeline (Dat)

namespace Cert.KernelIdeal.Bridge

open Cert.KernelIdeal Cert.KernelIdeal.Gen Idealize.ShloMosaic.ValueIdx Cert.Spec

/-! ## The sum over the runs -/

/-- The entries (o, 0, k) of the array of partial sums, o = 0, 1. -/
def runEmb (k : Fin 2048) : Fin 2 ↪ S2x1x2048.Idx :=
  ⟨fun o => ix3 o (0 : Fin 1) k, fun o o' h => by have := congrFun h 0; exact this⟩

/-- They are exactly the entries the sum over the first two axes adds up at `k`. -/
theorem runs_filter (k : Fin 2048) :
    Finset.univ.filter (fun i : S2x1x2048.Idx => reducesTo_S2x1x2048_S2048_d0_1.drop i = ix1 k) = Finset.univ.map (runEmb k) := by
  ext i
  simp only [Finset.mem_filter, Finset.mem_univ, true_and, Finset.mem_map, runEmb, Function.Embedding.coeFn_mk]
  constructor
  · intro h
    refine ⟨i 0, ?_⟩
    have h2 : i 2 = k := congrFun h 0
    funext a
    match a with
    | ⟨0, _⟩ => rfl
    | ⟨1, _⟩ => exact Fin.ext (by have h1 : (i 1).val < 1 := (i 1).isLt; show 0 = (i 1).val; omega)
    | ⟨2, _⟩ => exact h2.symm
  · rintro ⟨o, rfl⟩
    funext b
    match b with
    | ⟨0, _⟩ => rfl

/-- The host's sum over the first two axes of a [2, 1, 2048] array, at `k`: the starting value plus the two entries. -/
theorem runs_total (g : S2x1x2048.Idx → EReal) (init : EReal) (k : Fin 2048) :
    Ideal.hostReduceAdd reducesTo_S2x1x2048_S2048_d0_1 g init (ix1 k) = init + ∑ o : Fin 2, g (ix3 o (0 : Fin 1) k) := by
  unfold Ideal.hostReduceAdd
  rw [runs_filter, Finset.sum_map]
  rfl

/-! ## The host operations after the region, as one function of the two arrays they read -/

/-- The quotient row from the array of partial sums `P` and the mask `M`. -/
def tail (P : FVec Ideal S2x1x2048 .f32) (M : FVec Ideal S32768x1 .f32) : FVec Ideal S1x2048 .f32 :=
  broadcastInDim S1x2048 ![1] bcast_S2048_S1x2048_1
    (Host.divf (F := Ideal)
      (Host.reduceAdd (F := Ideal) P (constant (F := Ideal) S_ .f32 0x00000000#32) reducesTo_S2x1x2048_S2048_d0_1 h_S_)
      (broadcastInDim S2048 ![] bcast_S_S2048
        (Host.reduceAdd (F := Ideal) M (constant (F := Ideal) S_ .f32 0x00000000#32) reducesTo_S32768x1_S_d0_1 h_S_)))

/-- The host's quotient of two arrays, read at an index. -/
theorem host_divf_apply {s : Shape} {φ : FTy} (a b : FVec Ideal s φ) (i : s.Idx) :
    Host.divf a b i = Ideal.div (a i) (b i) := rfl

/-- The quotient row at centroid `k`: zero plus the two partial sums, over the mask's total. -/
theorem tail_apply (P : FVec Ideal S2x1x2048 .f32) (M : FVec Ideal S32768x1 .f32) (z : Fin 1) (k : Fin 2048) :
    tail P M (ix2 z k) = Ideal.div (zeroW + ∑ o : Fin 2, P (ix3 o (0 : Fin 1) k)) (maskTotal M) := by
  have hnum : Host.reduceAdd (F := Ideal) P (constant (F := Ideal) S_ .f32 0x00000000#32) reducesTo_S2x1x2048_S2048_d0_1 h_S_ (ix1 k)
      = zeroW + ∑ o : Fin 2, P (ix3 o (0 : Fin 1) k) := by
    simp only [Host.reduceAdd, Ideal.hostReduceAdd_def]
    exact runs_total P _ k
  have hden : broadcastInDim S2048 ![] bcast_S_S2048
        (Host.reduceAdd (F := Ideal) M (constant (F := Ideal) S_ .f32 0x00000000#32) reducesTo_S32768x1_S_d0_1 h_S_) (ix1 k)
      = maskTotal M := by
    refine (broadcastInDim_apply _ bcast_S_S2048 _ (ix1 k) ix0 (fun a => a.elim0)).trans ?_
    simp only [Host.reduceAdd, Ideal.hostReduceAdd_def]
    exact Ideal.hostReduceAdd_total reducesTo_S32768x1_S_d0_1 (fun b => b.elim0) M _ ix0
  unfold tail
  refine (broadcastInDim_apply _ bcast_S2048_S1x2048_1 _ (ix2 z k) (ix1 k) (fun a => match a with
    | ⟨0, _⟩ => by show k.val = if (2048 : Nat) = 1 then 0 else k.val; rw [if_neg (by decide)])).trans ?_
  refine (host_divf_apply _ _ (ix1 k)).trans ?_
  rw [hnum, hden]

variable (m : (ℓ : Loc nD τ sig) → Buf (Elt Ideal) ℓ)

/-- The quotient row of the partial sums the region leaves is the specification's first result. -/
theorem tail_partials (c : Dev nD) : tail (partials m c) (mask m c) = graph (nodes m c) (mask m c) (cents m c) := by
  funext i
  obtain ⟨z, k, rfl⟩ : ∃ (z : Fin 1) (k : Fin 2048), i = ix2 z k := ⟨i 0, i 1, eq_ix2 i⟩
  rw [tail_apply]
  unfold graph partials
  refine congrArg (fun s => Ideal.div (zeroW + s) (maskTotal (mask m c))) ?_
  refine (regroup (fun p => entryN (nodes m c) (mask m c) (cents m c) p k)).trans ?_
  exact Finset.sum_congr rfl fun n _ => entryN_of_lt _ _ _ n.val n.isLt k

/-- What the host operations after the region leave in the first result's buffer. -/
theorem graph_final (c : Dev nD) :
    Pipeline.afterTail₀ cfgs (dats m) 0 (V0 m) [hostOps1] c main_v9 = graph (nodes m c) (mask m c) (cents m c) := by
  unfold Pipeline.afterTail₀
  show StableHlo.after hostOps1 _ (Proc.devRef .tc main_v9) = _
  after_results
  have hP : Pipeline.withArrays (cfgs 0).spec c (V0 m c) (fun w => (dats m 0 c).arrAt w (cfgs 0).N) (Proc.devRef .tc main_v4_1)
      = partials m c :=
    (Pipeline.withArrays_arr spec0 launch0.win.arr_inj c _ _ 5).trans (acc_final m c)
  have hM : Pipeline.withArrays (cfgs 0).spec c (V0 m c) (fun w => (dats m 0 c).arrAt w (cfgs 0).N) (Proc.devRef .tc main_arg1)
      = mask m c :=
    (Pipeline.withArrays_arr spec0 launch0.win.arr_inj c _ _ 1).trans
      (((dats m 0 c).arrAt_in 1 rfl _).trans ((A_eq m c 1).trans (V_main_arg1 m c)))
  rw [hP, hM]
  exact tail_partials m c

/-- The kernel program's run, read: both results at the specification's functions of the arguments, the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9) = graph (nodes m c) (mask m c) (cents m c)
      ∧ r.2.mem ((c.tc : Thread nD τ).loc main_v4_0) = Cert.Spec.dist (nodes m c) (mask m c) (cents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (graph_final m c),
      ((h c).1 4).trans (dist_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Bridge

end
-- ==== Proof.lean ====
/-
  The kernel computes, for 32768 nodes and 2048 centroids, the masked Euclidean distances
      sqrt (max ((‖x_n‖² + ‖c_k‖²) - 2 · ⟨x_n, c_k⟩) ε) · mask_n
  and, per centroid, their sum over the nodes divided by the sum of the mask; the reference computes the same two arrays
  with whole-array operations.  Over the extended reals the two programs agree entry by entry:

  * a change of float format is the identity, so the product of a node tile with the transposed centroid table is the
    same inner products the reference contracts, and the row sums of squares are the same sums (the kernel's start from
    nothing, the reference's from zero);
  * the kernel walks the nodes in 64 tiles of 512 rows; each distance block is a block of rows of the distance array, and
    the 64 blocks tile it;
  * the per-centroid sums are accumulated tile by tile within each of two runs of 32 tiles, each run from zero, and the
    two runs' totals are added afterwards; addition of extended reals is commutative and associative, so this is the plain
    sum over all nodes, and both programs then divide by the same sum of the mask.

  No finiteness of the inputs is used.  The three frames are the generated frame runs (the reference's is its generated
  run with the results dropped), and the idealization rewrote nothing.
-/
import proofs.«168596_j59124519796877_2_alg».proof.Defs
import proofs.«168596_j59124519796877_2_alg».proof.Proof.Gen.Kernel
import proofs.«168596_j59124519796877_2_alg».proof.Proof.Gen.Kernel.Skeleton
import proofs.«168596_j59124519796877_2_alg».proof.Proof.Gen.Kernel.Launch
import proofs.«168596_j59124519796877_2_alg».proof.Proof.Gen.Kernel.Points
import proofs.«168596_j59124519796877_2_alg».proof.Proof.Gen.Kernel.Frame
import proofs.«168596_j59124519796877_2_alg».proof.Proof.Gen.KernelIdeal
import proofs.«168596_j59124519796877_2_alg».proof.Proof.Gen.KernelIdeal.Skeleton
import proofs.«168596_j59124519796877_2_alg».proof.Proof.Gen.KernelIdeal.Launch
import proofs.«168596_j59124519796877_2_alg».proof.Proof.Gen.KernelIdeal.Points
import proofs.«168596_j59124519796877_2_alg».proof.Proof.Gen.KernelIdeal.Frame
import proofs.«168596_j59124519796877_2_alg».proof.Proof.Gen.ReferenceIdeal
import proofs.«168596_j59124519796877_2_alg».proof.Proof.Gen.ReferenceIdeal.Run
import proofs.«168596_j59124519796877_2_alg».proof.Proof.Gen.ReferenceIdeal.Read
import proofs.«168596_j59124519796877_2_alg».proof.Proof.Gen.Pre_finite_inputs
import proofs.«168596_j59124519796877_2_alg».proof.Proof.RefValue
import proofs.«168596_j59124519796877_2_alg».proof.Proof.Results
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel :=
  fun m ρ _ => Cert.Kernel.Gen.frame m ρ

/-- So does its reading over the extended reals. -/
theorem frame_kernelIdeal : Cert.frame_KernelIdeal :=
  fun m ρ _ => Cert.KernelIdeal.Gen.frame m ρ

/-- The reference runs and leaves its arguments unchanged: its run with the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the three arguments both programs end with the specification's two arrays of those
    arguments. -/
theorem algebraic : Cert.algebraic_KernelIdeal_ReferenceIdeal := by
  intro m ρ m' ρ' _ hagree
  refine ⟨fun c => Cert.Spec.graph (Cert.KernelIdeal.Bridge.nodes m c) (Cert.KernelIdeal.Bridge.mask m c) (Cert.KernelIdeal.Bridge.cents m c),
    fun c => Cert.Spec.dist (Cert.KernelIdeal.Bridge.nodes m c) (Cert.KernelIdeal.Bridge.mask m c) (Cert.KernelIdeal.Bridge.cents m c),
    Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.ReferenceIdeal.RefValue.graph_eq, (hagree c).1, (hagree c).2.1, (hagree c).2.2]
  · rw [Cert.ReferenceIdeal.Read.val_main_v19_eq, Cert.ReferenceIdeal.RefValue.dist_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
